-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16384x128 .f32) (main_arg1 : FVec F S8192x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S16384x128 : Shape := ⟨2, ![16384, 128]⟩
abbrev S8192x128 : Shape := ⟨2, ![8192, 128]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S1024x128 : Shape := ⟨2, ![1024, 128]⟩
abbrev S1024x1 : Shape := ⟨2, ![1024, 1]⟩
abbrev S1x2048 : Shape := ⟨2, ![1, 2048]⟩
abbrev S1024x2048 : Shape := ⟨2, ![1024, 2048]⟩
abbrev S2048x128 : Shape := ⟨2, ![2048, 128]⟩

abbrev nBuf : Space → Nat
  | .hbm => 11
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x1, .f32⟩
  | .local _ .vmem, ⟨4, _⟩ => ⟨S1024x1, .f32⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S8192x128_S8192_d1 : S8192x128.ReducesTo [1] S8192
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  h_S2048x128 : 0 < S2048x128.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x8192.size a
  hwx0_4 : ∀ i : grid0.Coords, EltTy.bits .f32 = 32 ∨ (Rect.block (s := S16384x8192) S1024x2048.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S16384 : Shape := ⟨1, ![16384]⟩
abbrev S8192 : Shape := ⟨1, ![8192]⟩
abbrev S16384x8192 : Shape := ⟨2, ![16384, 8192]⟩
abbrev S16384x1 : Shape := ⟨2, ![16384, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S16384x8192, .f32⟩
  | .hbm, ⟨9, _⟩ => ⟨S16384x1, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  reducesTo_S8192x128_S8192_d1 : S8192x128.ReducesTo [1] S8192
  bcast_S16384_S16384x1_0 : S16384.BroadcastsInDim S16384x1 (![0] : Fin 1 → Fin S16384x1.rank)
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  dot_S16384x128_S8192x128_S16384x8192_1_1_0_0_n_n_wf : DotDims.WF S16384x128 S8192x128 S16384x8192 [1] [1] [0] [0] [] []

variable [Facts₀]

def dot_S16384x128_S8192x128_S16384x8192_1_1_0_0_n_n : DotDims S16384x128 S8192x128 S16384x8192 where
  lhsContracting := [1]
  rhsContracting := [1]
  lhsNonContracting := [0]
  rhsNonContracting := [0]
  lhsBatch := []
  rhsBatch := []
  wf := dot_S16384x128_S8192x128_S16384x8192_1_1_0_0_n_n_wf

class Facts : Prop extends Facts₀ where

variable [Facts]
-- ==== Proof.SqDist.lean ====
/-
  Pairwise squared distances between the rows of two matrices, on the extended reals.

  For `lhs` of 16384 rows and `rhs` of 8192 rows, each of 128 entries, the entry (p, q) of the result is

      (‖lhs p‖² + ‖rhs q‖²) − 2 · ⟨lhs p, rhs q⟩,

  the two squared norms and the inner product being sums over the 128 entries of a row. The squared norms
  start from the f32 word of +0.0 (the initial value of the sum), and the factor 2 is the f32 word 0x40000000;
  both words are kept as they are written, never evaluated.
-/
import Idealize.ShloMosaic.PureOps.Ideal
import Idealize.ShloMosaic.PureOps.Ideal.Laws
import Idealize.ShloMosaic.Lib.ValueIdx

noncomputable section

namespace SqDist

open Idealize.ShloMosaic Idealize.ShloMosaic.ValueIdx

/-- The left matrix: 16384 rows of 128 entries. -/
abbrev SL : Shape := ⟨2, ![16384, 128]⟩
/-- The right matrix: 8192 rows of 128 entries. -/
abbrev SR : Shape := ⟨2, ![8192, 128]⟩
/-- The result: one entry per pair (row of the left matrix, row of the right matrix). -/
abbrev SO : Shape := ⟨2, ![16384, 8192]⟩

/-- The initial value of a sum of squares: the word of +0.0. -/
def zero : EReal := Ideal.ofBits .f32 0x00000000#32
/-- The factor of the inner product: the word of 2.0. -/
def two : EReal := Ideal.ofBits .f32 0x40000000#32

/-- ‖lhs p‖²: the sum of the squares of row `p` of the left matrix. -/
def normL (l : SL.Idx → EReal) (p : Fin 16384) : EReal := zero + ∑ k : Fin 128, l (ix2 p k) * l (ix2 p k)
/-- ‖rhs q‖²: the sum of the squares of row `q` of the right matrix. -/
def normR (r : SR.Idx → EReal) (q : Fin 8192) : EReal := zero + ∑ k : Fin 128, r (ix2 q k) * r (ix2 q k)
/-- ⟨lhs p, rhs q⟩: the inner product of row `p` of the left matrix and row `q` of the right one. -/
def inner (l : SL.Idx → EReal) (r : SR.Idx → EReal) (p : Fin 16384) (q : Fin 8192) : EReal :=
  ∑ k : Fin 128, l (ix2 p k) * r (ix2 q k)

/-- The squared distance of row `p` of the left matrix from row `q` of the right one, in the expanded form
    (‖a‖² + ‖b‖²) − 2·⟨a, b⟩. -/
def entry (l : SL.Idx → EReal) (r : SR.Idx → EReal) (p : Fin 16384) (q : Fin 8192) : EReal :=
  (normL l p + normR r q) - two * inner l r p q

/-- The whole table of squared distances. -/
def table (l : SL.Idx → EReal) (r : SR.Idx → EReal) : SO.Idx → EReal := fun i => entry l r (i 0) (i 1)

theorem table_ix2 (l : SL.Idx → EReal) (r : SR.Idx → EReal) (p : Fin 16384) (q : Fin 8192) :
    table l r (ix2 p q) = entry l r p q := rfl

end SqDist

end
-- ==== Proof.Payload.lean ====
/-
  What one grid point stores, entry by entry, at the ideal values.

  The body's one store writes, at entry (p, q) of the 1024 × 2048 block,

      (a p + b q) − 2 · Σₖ x p k · y q k,

  where `a` is the loaded column of 1024 left squared norms, `b` the loaded row of 2048 right squared norms,
  `x` the 1024 × 128 block of the left matrix and `y` the 2048 × 128 slab of the right matrix: a column
  broadcast along the rows, a row broadcast along the columns, and a matrix product into the zero accumulator
  whose operands' change of float format is the identity on the extended reals.
-/
import proofs.«103904_j24704651886789_2_alg».proof.Proof.Gen.KernelIdeal.Skeleton
import proofs.«103904_j24704651886789_2_alg».proof.Proof.SqDist
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The product's dimension record: both operands contracted along their second axis. -/
abbrev D : DotDims S1024x128 S2048x128 S1024x2048 := dot_S1024x128_S2048x128_S1024x2048_1_1_0_0_n_n

/-- A column of 1024 values broadcast along 2048 columns: entry (p, q) is the column's entry p. -/
theorem col_bcast (x : Vec Ideal S1024x1 .f32) (h1 : S1024x1.ShapeCasts S1024x1) (h2 : S1024x1.Broadcasts S1024x2048)
    (p : Fin 1024) (q : Fin 2048) :
    broadcastTo S1024x2048 (shapeCast S1024x1 x h1) h2 (ix2 p q) = x (ix2 p 0) := by
  rw [shapeCast_self]
  exact broadcastTo_apply x h2 (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- A row of 2048 values broadcast along 1024 rows: entry (p, q) is the row's entry q. -/
theorem row_bcast (x : Vec Ideal S1x2048 .f32) (h1 : S1x2048.ShapeCasts S1x2048) (h2 : S1x2048.Broadcasts S1024x2048)
    (p : Fin 1024) (q : Fin 2048) :
    broadcastTo S1024x2048 (shapeCast S1x2048 x h1) h2 (ix2 p q) = x (ix2 0 q) := by
  rw [shapeCast_self]
  exact broadcastTo_apply x h2 (ix2 p q) (ix2 0 q) (fun a => by
    match a with
    | ⟨0, _⟩ => show 0 = if (1 : Nat) = 1 then 0 else p.val; rw [if_pos rfl]
    | ⟨1, _⟩ => show q.val = if (2048 : Nat) = 1 then 0 else q.val; rw [if_neg (by decide)])

/-- The left operand's row is the result's row; -/
theorem lhs_row (i : S1024x2048.Idx) (k : D.contr.Idx) : (D.lhsIdx i k 0).val = (i 0).val := by
  unfold DotDims.lhsIdx
  rw [dif_neg (show ¬(0 : Fin S1024x128.rank) ∈ D.lhsBatch by decide), dif_pos (show (0 : Fin S1024x128.rank) ∈ D.lhsNonContracting by decide)]
  rfl

/-- the right operand's row is the result's column. -/
theorem rhs_row (i : S1024x2048.Idx) (k : D.contr.Idx) : (D.rhsIdx i k 0).val = (i 1).val := by
  unfold DotDims.rhsIdx
  rw [dif_neg (show ¬(0 : Fin S2048x128.rank) ∈ D.rhsBatch by decide), dif_pos (show (0 : Fin S2048x128.rank) ∈ D.rhsNonContracting by decide)]
  rfl

/-- The matrix product into the zero accumulator, its operands passed through a change of float format: entry
    (p, q) is the sum over the 128 contracted columns of row p of the left block times row q of the right slab. -/
theorem cross_apply (h : FTy.bits .bf16 < FTy.bits .f32) (x0 : Vec Ideal S1024x128 .f32) (x1 : Vec Ideal S2048x128 .f32)
    (p : Fin 1024) (q : Fin 2048) :
    matmul (F := Ideal) D none (truncf .bf16 x0 h) (truncf .bf16 x1 h) (constant S1024x2048 .f32 0x00000000#32) (ix2 p q)
      = ∑ k : Fin 128, x0 (ix2 p k) * x1 (ix2 q k) := by
  refine (Ideal.matmul_constant_zero_apply D none (truncf .bf16 x0 h) (truncf .bf16 x1 h) (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (D.rhsIdx_val_of_single rfl _ _).trans hk)
  rw [el, er]
  rfl

/-- THE STORED ENTRY: (a p + b q) − 2 · Σₖ x p k · y q k. -/
theorem pay_apply (x0 : Vec Ideal S1024x128 .f32) (x1 : Vec Ideal S2048x128 .f32) (x2 : Vec Ideal S1024x1 .f32) (x3 : Vec Ideal S1x2048 .f32)
    (p : Fin 1024) (q : Fin 2048) :
    k0_pay1 (F := Ideal) x0 x1 x2 x3 (ix2 p q)
      = (x2 (ix2 p 0) + x3 (ix2 0 q)) - SqDist.two * ∑ k : Fin 128, x0 (ix2 p k) * x1 (ix2 q k) := by
  unfold k0_pay1
  rw [subf_apply, addf_apply, mulf_apply, broadcast_apply, col_bcast, row_bcast, cross_apply]
  rfl

end Cert.KernelIdeal.Body

end
-- ==== Proof.Body.lean ====
/-
  What the body leaves in the output's staging buffer at a grid point.

  The body makes one store covering the whole 1024 × 2048 block. Its value is the payload of four loads: the
  left block, the left squared norms and the right squared norms read whole, and the right matrix — resident
  as all 8192 rows — read through the 2048-row slab whose first row is 2048 times the point's second coordinate.
-/
import proofs.«103904_j24704651886789_2_alg».proof.Proof.Gen.KernelIdeal.Frame
import Idealize.ShloMosaic.Lib.Pipeline.Value

noncomputable section

namespace Cert.KernelIdeal.Body

open Cert.KernelIdeal Cert.KernelIdeal.Gen Idealize.ShloMosaic Idealize.ShloMosaic.TcCoe Idealize.SL.Sem

variable {F : FTy → Type} [FloatOps F]

/-- The zero offsets of a whole-block access. -/
theorem hz : (![0, 0] : Fin 2 → Nat) = fun _ => 0 := funext fun a => by fin_cases a <;> rfl

/-- The 2048-row slab of the resident right matrix that the point `i` reads. -/
abbrev slab (i : grid0.Coords) (x1 : Vec F S8192x128 .f32) : Vec F S2048x128 .f32 :=
  View.ld x1 (Rect.unit (k0_off1 i) S2048x128.size (k0_off1_inb i))

/-- The staging buffer of the output ends at the payload of the point's loads. -/
theorem out_eq (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x2048 .f32) (harg6 : arg6.IsWhole)
    (x0 : Vec F S1024x128 .f32) (x1 : Vec F S8192x128 .f32) (x2 : Vec F S1024x1 .f32) (x3 : Vec F S1x2048 .f32) :
    out0_A_4 c i arg2 harg2 arg3 harg3 arg4 harg4 arg5 harg5 arg6 harg6 x0 x1 x2 x3 = k0_pay1 x0 (slab i x1) x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz]
  simp only [View.readAt_eq_ld, harg2.read_unread, harg3.read_unread, harg4.read_unread, harg5.read_unread,
    View.ld_unit_zero (S := S1024x128) hz, View.ld_unit_zero (S := S1024x1) hz, View.ld_unit_zero (S := S1x2048) hz]

end Cert.KernelIdeal.Body

end
-- ==== Proof.Point.lean ====
/-
  One grid point's block of the table.

  At the point whose output block is (ti, tj) — rows 1024·ti … of the left matrix against rows 2048·tj … of the
  right one — the body loads the left block at rows 1024·ti + p, the whole right matrix (of which it reads the
  slab at rows 2048·tj + q), the squared norms of those rows, and stores (‖a‖² + ‖b‖²) − 2·⟨a, b⟩ for each pair:
  the block (ti, tj) of the table of squared distances.
-/
import proofs.«103904_j24704651886789_2_alg».proof.Proof.Payload
import proofs.«103904_j24704651886789_2_alg».proof.Proof.Body

noncomputable section

namespace Cert.KernelIdeal.Body

open Cert.KernelIdeal Cert.KernelIdeal.Gen Idealize.ShloMosaic Idealize.ShloMosaic.ValueIdx

/-- Row `q` of the slab the point `i` reads is row 2048 · (i 1) + q of the resident right matrix. -/
theorem slab_apply (i : grid0.Coords) (x1 : Vec Ideal S8192x128 .f32) (tj : Nat) (hi : (i 1).val = tj) (htj : tj < 4)
    (q : Fin 2048) (k : Fin 128) :
    slab i x1 (ix2 q k) = x1 (ix2 (⟨2048 * tj + q.val, by have := q.isLt; omega⟩ : Fin 8192) k) := by
  show x1 ((Rect.unit (s := S8192x128) (k0_off1 i) S2048x128.size (k0_off1_inb i)).emb (ix2 q k)) = _
  refine congrArg x1 (funext fun a => Fin.ext ?_)
  match a with
  | ⟨0, _⟩ =>
    show k0_off1 i 0 + 1 * q.val = 2048 * tj + q.val
    rw [k0_off1_eq i, ← hi]
    show 2048 * (i 1).val + 1 * q.val = _
    omega
  | ⟨1, _⟩ =>
    show k0_off1 i 1 + 1 * k.val = k.val
    rw [k0_off1_eq i]
    show 0 + 1 * k.val = _
    omega

/-- THE BLOCK (ti, tj): what the body stores at the point, from loads that are the blocks of the arrays
    `l`, `r` (the two matrices), `a` (the column of left squared norms) and `b` (the row of right ones). -/
theorem block_eq (l : SqDist.SL.Idx → EReal) (r : SqDist.SR.Idx → EReal)
    (a : S16384x1.Idx → EReal) (b : S1x8192.Idx → EReal)
    (ha : ∀ p : Fin 16384, a (ix2 p 0) = SqDist.normL l p) (hb : ∀ q : Fin 8192, b (ix2 0 q) = SqDist.normR r q)
    (ti tj : Nat) (hti : ti < 16) (htj : tj < 4) (i : grid0.Coords) (hi : (i 1).val = tj)
    (x0 : Vec Ideal S1024x128 .f32) (x1 : Vec Ideal S8192x128 .f32) (x2 : Vec Ideal S1024x1 .f32) (x3 : Vec Ideal S1x2048 .f32)
    (h0 : ∀ (p : Fin 1024) (k : Fin 128), x0 (ix2 p k) = l (ix2 (⟨1024 * ti + p.val, by have := p.isLt; omega⟩ : Fin 16384) k))
    (h1 : ∀ (q : Fin 8192) (k : Fin 128), x1 (ix2 q k) = r (ix2 q k))
    (h2 : ∀ p : Fin 1024, x2 (ix2 p 0) = a (ix2 (⟨1024 * ti + p.val, by have := p.isLt; omega⟩ : Fin 16384) 0))
    (h3 : ∀ q : Fin 2048, x3 (ix2 0 q) = b (ix2 0 (⟨2048 * tj + q.val, by have := q.isLt; omega⟩ : Fin 8192)))
    (p : Fin 1024) (q : Fin 2048) :
    k0_pay1 (F := Ideal) x0 (slab i x1) x2 x3 (ix2 p q)
      = SqDist.entry l r ⟨1024 * ti + p.val, by have := p.isLt; omega⟩ ⟨2048 * tj + q.val, by have := q.isLt; omega⟩ := by
  rw [pay_apply, h2, h3, ha, hb]
  unfold SqDist.entry SqDist.inner
  refine congrArg (_ - SqDist.two * ·) (Finset.sum_congr rfl fun k _ => ?_)
  rw [h0, slab_apply i x1 tj hi htj, h1]

end Cert.KernelIdeal.Body

end
-- ==== Proof.HostNorms.lean ====
/-
  The squared norms the region finds.

  Before the region is entered the host squares each matrix entrywise and sums every row from +0.0; the left
  sums are laid out as a 16384 × 1 column and the right ones as a 1 × 8192 row. Entry (p, 0) of the column is
  ‖lhs p‖² and entry (0, q) of the row is ‖rhs q‖².
-/
import proofs.«103904_j24704651886789_2_alg».proof.Proof.Gen.KernelIdeal.Frame
import proofs.«103904_j24704651886789_2_alg».proof.Proof.SqDist
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostNorms

open Cert.KernelIdeal Cert.KernelIdeal.Gen Idealize.ShloMosaic Idealize.ShloMosaic.TcCoe Idealize.SL.Sem
open Idealize.ShloMosaic.StableHlo Idealize.ShloMosaic.ValueIdx

/-- The column of row sums of squares of a 16384 × 128 matrix, read at (p, 0). -/
theorem col_apply (x : FVec Ideal S16384x128 .f32) (h1 : S16384x128.ReducesTo [1] S16384) (h2 : 0 < S_.numel)
    (h3 : S16384.BroadcastsInDim S16384x1 (![0] : Fin 1 → Fin S16384x1.rank)) (p : Fin 16384) :
    broadcastInDim S16384x1 ![0] h3 (Host.reduceAdd (F := Ideal) (mulf x x) (constant S_ .f32 0x00000000#32) h1 h2) (ix2 p 0)
      = SqDist.normL x p := by
  refine (broadcastInDim_apply _ h3 _ (ix2 p 0) (ix1 p) (fun a => match a with
    | ⟨0, _⟩ => by show p.val = if (16384 : Nat) = 1 then 0 else p.val; rw [if_neg (by decide)])).trans ?_
  generalize hy : mulf x x = y
  simp only [Host.reduceAdd, Ideal.hostReduceAdd_def]
  rw [Ideal.hostReduceAdd_single h1 (by decide)]
  subst hy
  unfold SqDist.normL SqDist.zero
  refine congrArg (_ + ·) (Finset.sum_congr rfl fun k _ => ?_)
  exact congrArg (mulf x x) (funext fun a => Fin.ext (by match a with | ⟨0, _⟩ => rfl | ⟨1, _⟩ => rfl))

/-- The row of row sums of squares of an 8192 × 128 matrix, read at (0, q). -/
theorem row_apply (x : FVec Ideal S8192x128 .f32) (h1 : S8192x128.ReducesTo [1] S8192) (h2 : 0 < S_.numel)
    (h3 : S8192.BroadcastsInDim S1x8192 (![1] : Fin 1 → Fin S1x8192.rank)) (q : Fin 8192) :
    broadcastInDim S1x8192 ![1] h3 (Host.reduceAdd (F := Ideal) (mulf x x) (constant S_ .f32 0x00000000#32) h1 h2) (ix2 0 q)
      = SqDist.normR x q := by
  refine (broadcastInDim_apply _ h3 _ (ix2 0 q) (ix1 q) (fun a => match a with
    | ⟨0, _⟩ => by show q.val = if (8192 : Nat) = 1 then 0 else q.val; rw [if_neg (by decide)])).trans ?_
  generalize hy : mulf x x = y
  simp only [Host.reduceAdd, Ideal.hostReduceAdd_def]
  rw [Ideal.hostReduceAdd_single h1 (by decide)]
  subst hy
  unfold SqDist.normR SqDist.zero
  refine congrArg (_ + ·) (Finset.sum_congr rfl fun k _ => ?_)
  exact congrArg (mulf x x) (funext fun a => Fin.ext (by match a with | ⟨0, _⟩ => rfl | ⟨1, _⟩ => rfl))

variable (m : (ℓ : Loc nD τ sig) → Buf (Elt Ideal) ℓ)

/-- The column the region finds is the host's row sums of squares of the left argument. -/
theorem V_col (c : Dev nD) : (V m c main_v2 : S16384x1.Idx → EReal)
    = broadcastInDim S16384x1 ![0] bcast_S16384_S16384x1_0 (Host.reduceAdd (F := Ideal)
        (mulf (m ((c : Thread nD τ).loc main_arg0)) (m ((c : Thread nD τ).loc main_arg0))) (constant S_ .f32 0x00000000#32)
        reducesTo_S16384x128_S16384_d1 h_S_) := by
  dsimp only [Gen.V, Gen.hostOps0]; after_results

/-- The row the region finds is the host's row sums of squares of the right argument. -/
theorem V_row (c : Dev nD) : (V m c main_v5 : S1x8192.Idx → EReal)
    = broadcastInDim S1x8192 ![1] bcast_S8192_S1x8192_1 (Host.reduceAdd (F := Ideal)
        (mulf (m ((c : Thread nD τ).loc main_arg1)) (m ((c : Thread nD τ).loc main_arg1))) (constant S_ .f32 0x00000000#32)
        reducesTo_S8192x128_S8192_d1 h_S_) := by
  dsimp only [Gen.V, Gen.hostOps0]; after_results

/-- Entry (p, 0) of the column the region finds is ‖lhs p‖². -/
theorem V_col_apply (c : Dev nD) (p : Fin 16384) :
    (V m c main_v2 : S16384x1.Idx → EReal) (ix2 p 0) = SqDist.normL (m ((c : Thread nD τ).loc main_arg0)) p := by
  rw [V_col]; exact col_apply _ _ _ _ p

/-- Entry (0, q) of the row the region finds is ‖rhs q‖². -/
theorem V_row_apply (c : Dev nD) (q : Fin 8192) :
    (V m c main_v5 : S1x8192.Idx → EReal) (ix2 0 q) = SqDist.normR (m ((c : Thread nD τ).loc main_arg1)) q := by
  rw [V_row]; exact row_apply _ _ _ _ q

end Cert.KernelIdeal.HostNorms

end
-- ==== Proof.Blocks.lean ====
/-
  From blocks to the array: the kernel's result is the table of squared distances.

  The grid has 16 × 4 points; the point (ti, tj) writes back the 1024 × 2048 block (ti, tj) of the result, and
  these 64 blocks tile the 16384 × 8192 array. What a point writes back is that block of ONE function of the
  argument arrays — the table of squared distances — so the array after the run is the table.
-/
import proofs.«103904_j24704651886789_2_alg».proof.Proof.Gen.KernelIdeal.Value
import proofs.«103904_j24704651886789_2_alg».proof.Proof.Point
import proofs.«103904_j24704651886789_2_alg».proof.Proof.HostNorms

noncomputable section

namespace Cert.KernelIdeal.Table

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index maps over the 64 points: the left block and its squared norms move with the output's row block,
    the right squared norms with its column block, the right matrix stays whole; the output's block indices
    range over 16 × 4; the point's second coordinate is the output's column block. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) < 16 ∧ win0_4.index t (1 : Fin 2) < 4
    ∧ (grid0.coords t 1).val = win0_4.index t (1 : Fin 2) :=
  (by decide +kernel : ∀ t : Fin grid0.N, _)

/-- Every block of the 16 × 4 tiling is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- The table of squared distances of the two arguments as the region finds them. -/
abbrev G (c : Dev nD) : S16384x8192.Idx → EReal := SqDist.table (V m c main_arg0) (V m c main_arg1)

/-- WHAT POINT `t` WRITES BACK is block `t` of the table. -/
theorem flushed_eq (c : Dev nD) (t : Fin cfg0.N) :
    (dats m 0 c).flushed 4 t = ((cfg0.win 4).blk t).view.read (Elt Ideal) (G m c) := by
  rw [Value.flushed4_A, Body.out_eq]
  obtain ⟨e00, e01, e10, e11, e20, e21, e30, e31, b0, b1, ec⟩ := idx_facts t
  funext y
  obtain ⟨p, q, rfl⟩ : ∃ (p : Fin 1024) (q : Fin 2048), y = ix2 p q := ⟨y 0, y 1, eq_ix2 y⟩
  refine (Body.block_eq (V m c main_arg0) (V m c main_arg1) (V m c main_v2) (V m c main_v5)
    (fun p => by rw [HostNorms.V_col_apply, V_main_arg0]) (fun q => by rw [HostNorms.V_row_apply, V_main_arg1])
    (win0_4.index t (0 : Fin 2)) (win0_4.index t (1 : Fin 2)) b0 b1 (grid0.coords t) ec
    (iblk m c 0 t) (iblk m c 1 t) (iblk m c 2 t) (iblk m c 3 t) ?_ ?_ ?_ ?_ p q).trans ?_
  · intro p k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = 1024 * win0_4.index t (0 : Fin 2) + p.val; omega
    | ⟨1, _⟩ => show win0_0.index t (1 : Fin 2) * 128 + 1 * k.val = k.val; omega
  · intro q k
    show V m c main_arg1 (((cfg0.win 1).blk t).view.emb (ix2 q k)) = V m c main_arg1 _
    refine congrArg (V m c main_arg1) (funext fun a => Fin.ext ?_)
    match a with
    | ⟨0, _⟩ => show win0_1.index t (0 : Fin 2) * 8192 + 1 * q.val = q.val; omega
    | ⟨1, _⟩ => show win0_1.index t (1 : Fin 2) * 128 + 1 * k.val = k.val; omega
  · intro p
    show V m c main_v2 (((cfg0.win 2).blk t).view.emb (ix2 p 0)) = V m c main_v2 _
    refine congrArg (V m c main_v2) (funext fun a => Fin.ext ?_)
    match a with
    | ⟨0, _⟩ => show win0_2.index t (0 : Fin 2) * 1024 + 1 * p.val = 1024 * win0_4.index t (0 : Fin 2) + p.val; omega
    | ⟨1, _⟩ => show win0_2.index t (1 : Fin 2) * 1 + 1 * 0 = 0; omega
  · intro q
    show V m c main_v5 (((cfg0.win 3).blk t).view.emb (ix2 0 q)) = V m c main_v5 _
    refine congrArg (V m c main_v5) (funext fun a => Fin.ext ?_)
    match a with
    | ⟨0, _⟩ => show win0_3.index t (0 : Fin 2) * 1 + 1 * 0 = 0; omega
    | ⟨1, _⟩ => show win0_3.index t (1 : Fin 2) * 2048 + 1 * q.val = 2048 * win0_4.index t (1 : Fin 2) + q.val; omega
  · show _ = SqDist.table (V m c main_arg0) (V m c main_arg1) (((cfg0.win 4).blk t).view.emb (ix2 p q))
    unfold SqDist.table
    refine congrArg₂ (SqDist.entry (V m c main_arg0) (V m c main_arg1)) (Fin.ext ?_) (Fin.ext ?_)
    · show 1024 * win0_4.index t (0 : Fin 2) + p.val = win0_4.index t (0 : Fin 2) * 1024 + 1 * p.val; omega
    · show 2048 * win0_4.index t (1 : Fin 2) + q.val = win0_4.index t (1 : Fin 2) * 2048 + 1 * q.val; omega

/-- An index of the result is in point `t`'s block iff each coordinate is in the block's range on its axis. -/
theorem mem_blk (t : Fin cfg0.N) (i : S16384x8192.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v6).slice (win0_4.rect t)).set ↔ _
  rw [View.set_slice_whole, Rect.mem_set_unit]
  exact Iff.rfl

/-- The 64 blocks tile the result: row r lies in row block r / 1024, column s in column block s / 2048. -/
theorem cover (i : S16384x8192.Idx) :
    ∃ t : Fin cfg0.N, (cfg0.win 4).flush t = true ∧ i ∈ ((cfg0.win 4).blk t).view.set := by
  have hi0 : (i 0).val < 16384 := (i 0).isLt
  have hi1 : (i 1).val < 8192 := (i 1).isLt
  obtain ⟨t, ht⟩ := idx_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- THE ARRAY after the run is the table of squared distances. -/
theorem final (c : Dev nD) : (dats m 0 c).arrAt 4 cfg0.N = G m c :=
  (dats m 0 c).arrAt_eq_of_cover 4 (G m c) (fun t _ => flushed_eq m c t) cover

/-- The run, read: the result array at the table of squared distances of the arguments, the arguments unchanged. -/
theorem run : θ_run defs (onTc (τ := τ) (main (F := Ideal))) ⟨m, fun _ => 0, ρ⟩ fun r => ∀ c : Dev nD,
      r.2.mem ((c : Thread nD τ).loc main_v6)
        = SqDist.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show SqDist.table (V m c main_arg0) (V m c main_arg1) = _
      rw [V_main_arg0 m c, V_main_arg1 m c])), (h c).2⟩)
    (Value.run_blocks m ρ)

end Cert.KernelIdeal.Table

end
-- ==== Proof.RefTable.lean ====
/-
  The reference computes the table of squared distances.

  Entry (p, q) of the reference's result is read one operation at a time: the difference of
  (the sum of the two broadcast squared norms) and (2 times the contraction over the 128 columns);
  each squared norm is the host's row sum of the entrywise squares, started from +0.0.
-/
import proofs.«103904_j24704651886789_2_alg».proof.Proof.Gen.ReferenceIdeal.Read
import proofs.«103904_j24704651886789_2_alg».proof.Proof.SqDist

noncomputable section

namespace Cert.ReferenceIdeal.RefValue

open Cert.ReferenceIdeal Cert.ReferenceIdeal.Read Idealize.ShloMosaic Idealize.ShloMosaic.ValueIdx

/-- Row `p`, column `k` of the left matrix, as the reference's row sum and its contraction name it. -/
theorem lrow (p : Fin 16384) (q : Fin 8192) (k : Fin 128) :
    idx_main_v1 (idx_main_v5 (idx_main_v7 (ix2 p q))) k = ix2 p k :=
  funext fun a => Fin.ext (by match a with | ⟨0, _⟩ => rfl | ⟨1, _⟩ => rfl)

/-- Row `q`, column `k` of the right matrix, likewise. -/
theorem rrow (p : Fin 16384) (q : Fin 8192) (k : Fin 128) :
    idx_main_v3 (idx_main_v6 (idx_main_v8 (ix2 p q))) k = ix2 q k :=
  funext fun a => Fin.ext (by match a with | ⟨0, _⟩ => rfl | ⟨1, _⟩ => rfl)

theorem lcontr (p : Fin 16384) (q : Fin 8192) (k : Fin 128) : lidx_main_v4 (ix2 p q) k = ix2 p k :=
  funext fun a => Fin.ext (by match a with | ⟨0, _⟩ => rfl | ⟨1, _⟩ => rfl)

theorem rcontr (p : Fin 16384) (q : Fin 8192) (k : Fin 128) : ridx_main_v4 (ix2 p q) k = ix2 q k :=
  funext fun a => Fin.ext (by match a with | ⟨0, _⟩ => rfl | ⟨1, _⟩ => rfl)

/-- The reference's result is the table of squared distances of its two arguments. -/
theorem ref_table (x0 : (⟨S16384x128, .f32⟩ : BufTy).Contents (Elt Ideal)) (x1 : (⟨S8192x128, .f32⟩ : BufTy).Contents (Elt Ideal)) :
    val_main_v12 (F := Ideal) x0 x1 = SqDist.table x0 x1 := by
  funext i
  obtain ⟨p, q, rfl⟩ : ∃ (p : Fin 16384) (q : Fin 8192), i = ix2 p q := ⟨i 0, i 1, eq_ix2 i⟩
  rw [SqDist.table_ix2]
  rw [val_main_v12_apply, val_main_v9_apply, val_main_v11_apply, val_main_v7_apply, val_main_v5_apply, val_main_v1_apply,
    val_main_v8_apply, val_main_v6_apply, val_main_v3_apply, val_main_v10_apply, val_main_cst_1_apply, val_main_v4_apply,
    val_main_cst_apply, val_main_cst_0_apply]
  simp only [val_main_v0_apply, val_main_v2_apply, lrow, rrow, lcontr, rcontr, Ideal.mulf_def, Ideal.addf_def, Ideal.subf_def,
    Ideal.ofBits_def]
  rfl

end Cert.ReferenceIdeal.RefValue

end
-- ==== Proof.lean ====
/-
  Pairwise squared distances: the kernel's table is the reference's, on the extended reals.

  Both programs compute, for every row p of the 16384 × 128 left matrix and every row q of the 8192 × 128 right
  matrix, the expanded form (‖lhs p‖² + ‖rhs q‖²) − 2·⟨lhs p, rhs q⟩.

  The kernel's host side squares and row-sums each matrix once (a 16384 × 1 column and a 1 × 8192 row of squared
  norms); its grid of 16 × 4 points then writes the 1024 × 2048 block (ti, tj) of the result from the left block
  ti, the slab tj of the resident right matrix, and the matching squared norms. The inner products go through a
  matrix product whose operands are first narrowed to a shorter float format; on the extended reals a change of
  format is the identity and the product into a zero accumulator is the plain sum over the 128 columns. The
  reference row-sums the same squares, contracts the two matrices in one product, and combines the three by
  broadcasts. Entry by entry both are the same expression in the same order — two sums started from the word
  of +0.0, their sum, minus the word of 2.0 times the sum of products — so no algebraic law beyond the
  definitions is used, and finiteness of the inputs is never needed.

  The frames are the generated ones (the reference's is its run with the result dropped); the idealization
  rewrote nothing, so there is nothing to preserve.
-/
import proofs.«103904_j24704651886789_2_alg».proof.Defs
import proofs.«103904_j24704651886789_2_alg».proof.Proof.Gen.Kernel
import proofs.«103904_j24704651886789_2_alg».proof.Proof.Gen.Kernel.Frame
import proofs.«103904_j24704651886789_2_alg».proof.Proof.Gen.KernelIdeal
import proofs.«103904_j24704651886789_2_alg».proof.Proof.Gen.KernelIdeal.Frame
import proofs.«103904_j24704651886789_2_alg».proof.Proof.Gen.ReferenceIdeal
import proofs.«103904_j24704651886789_2_alg».proof.Proof.Gen.Pre_finite_inputs
import proofs.«103904_j24704651886789_2_alg».proof.Proof.Gen.KernelIdeal.Value
import proofs.«103904_j24704651886789_2_alg».proof.Proof.Gen.ReferenceIdeal.Run
import proofs.«103904_j24704651886789_2_alg».proof.Proof.Gen.ReferenceIdeal.Read
import proofs.«103904_j24704651886789_2_alg».proof.Proof.Blocks
import proofs.«103904_j24704651886789_2_alg».proof.Proof.RefTable
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the table of squared distances of those arguments. -/
theorem algebraic : Cert.algebraic_KernelIdeal_ReferenceIdeal := by
  intro m ρ m' ρ' _ hagree
  refine ⟨fun c => SqDist.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_table, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
